-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v56)) (v3 : (c : Dev Cert.KernelIdeal.nD) → Buf (Elt Ideal) ((c.tc : Thread Cert.KernelIdeal.nD Cert.KernelIdeal.τ).loc Cert.KernelIdeal.main_v57)) (v4 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_v57) = v3 c
          ∧ r.2.mem ((c.tc : Thread Cert.KernelIdeal.nD Cert.KernelIdeal.τ).loc Cert.KernelIdeal.main_v58) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_v63) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S8192x128 : Shape := ⟨2, ![8192, 128]⟩
abbrev S8192x1 : Shape := ⟨2, ![8192, 1]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : IVec S65536 32) (main_arg1 : IVec S65536 32) (main_arg2 : FVec F S8192x128 .f32) (main_arg3 : FVec F S8192x128 .f32) (main_arg4 : FVec F S8192x1 .f32) (main_arg5 : FVec F S8192 .f32) : IVec S_ 1 :=
  let main_v0 : FVec F S8192x128 .f32 := Host.absf main_arg2
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg3
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x1 .f32 := Host.absf main_arg4
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192 .f32 := Host.absf main_arg5
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S65536 : Shape := ⟨1, ![65536]⟩
abbrev S8192x128 : Shape := ⟨2, ![8192, 128]⟩
abbrev S8192x1 : Shape := ⟨2, ![8192, 1]⟩
abbrev S8192 : Shape := ⟨1, ![8192]⟩
abbrev S_ : Shape := ⟨0, ![]⟩
abbrev S65536x1 : Shape := ⟨2, ![65536, 1]⟩
abbrev S65536x128 : Shape := ⟨2, ![65536, 128]⟩
abbrev S8192x8192 : Shape := ⟨2, ![8192, 8192]⟩
abbrev S65536x2 : Shape := ⟨2, ![65536, 2]⟩
abbrev S128x8192 : Shape := ⟨2, ![128, 8192]⟩
abbrev S1x8192 : Shape := ⟨2, ![1, 8192]⟩
abbrev S1024x128 : Shape := ⟨2, ![1024, 128]⟩
abbrev S128x1024 : Shape := ⟨2, ![128, 1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 87
  | .vmem => 12
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S8192x128, .f32⟩
  | .hbm, ⟨3, _⟩ => ⟨S8192x128, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S8192x128, .f32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S_, .f32⟩
  | .hbm, ⟨17, _⟩ => ⟨S65536x128, .f32⟩
  | .hbm, ⟨18, _⟩ => ⟨S8192x128, .f32⟩
  | .hbm, ⟨19, _⟩ => ⟨S_, .f32⟩
  | .hbm, ⟨20, _⟩ => ⟨S8192x128, .f32⟩
  | .hbm, ⟨21, _⟩ => ⟨S_, .i32⟩
  | .hbm, ⟨22, _⟩ => ⟨S65536, .i32⟩
  | .hbm, ⟨23, _⟩ => ⟨S65536, .i1⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S65536x1, .i32⟩
  | .hbm, ⟨29, _⟩ => ⟨S_, .f32⟩
  | .hbm, ⟨30, _⟩ => ⟨S65536x128, .f32⟩
  | .hbm, ⟨31, _⟩ => ⟨S8192x128, .f32⟩
  | .hbm, ⟨32, _⟩ => ⟨S_, .f32⟩
  | .hbm, ⟨33, _⟩ => ⟨S8192x1, .f32⟩
  | .hbm, ⟨34, _⟩ => ⟨S_, .i32⟩
  | .hbm, ⟨35, _⟩ => ⟨S65536, .i32⟩
  | .hbm, ⟨36, _⟩ => ⟨S65536, .i1⟩
  | .hbm, ⟨37, _⟩ => ⟨S_, .i32⟩
  | .hbm, ⟨38, _⟩ => ⟨S65536, .i32⟩
  | .hbm, ⟨39, _⟩ => ⟨S65536, .i32⟩
  | .hbm, ⟨40, _⟩ => ⟨S65536, .i32⟩
  | .hbm, ⟨41, _⟩ => ⟨S65536x1, .i32⟩
  | .hbm, ⟨42, _⟩ => ⟨S_, .f32⟩
  | .hbm, ⟨43, _⟩ => ⟨S65536x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S_, .i32⟩
  | .hbm, ⟨48, _⟩ => ⟨S65536, .i32⟩
  | .hbm, ⟨49, _⟩ => ⟨S65536, .i1⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S65536, .i32⟩
  | .hbm, ⟨54, _⟩ => ⟨S65536x1, .i32⟩
  | .hbm, ⟨55, _⟩ => ⟨S_, .f32⟩
  | .hbm, ⟨56, _⟩ => ⟨S65536, .f32⟩
  | .hbm, ⟨57, _⟩ => ⟨S8192, .f32⟩
  | .hbm, ⟨58, _⟩ => ⟨S_, .f32⟩
  | .hbm, ⟨59, _⟩ => ⟨S8192x8192, .f32⟩
  | .hbm, ⟨60, _⟩ => ⟨S_, .i32⟩
  | .hbm, ⟨61, _⟩ => ⟨S65536, .i32⟩
  | .hbm, ⟨62, _⟩ => ⟨S65536, .i1⟩
  | .hbm, ⟨63, _⟩ => ⟨S_, .i32⟩
  | .hbm, ⟨64, _⟩ => ⟨S65536, .i32⟩
  | .hbm, ⟨65, _⟩ => ⟨S65536, .i32⟩
  | .hbm, ⟨66, _⟩ => ⟨S65536, .i32⟩
  | .hbm, ⟨67, _⟩ => ⟨S_, .i32⟩
  | .hbm, ⟨68, _⟩ => ⟨S65536, .i32⟩
  | .hbm, ⟨69, _⟩ => ⟨S65536, .i1⟩
  | .hbm, ⟨70, _⟩ => ⟨S_, .i32⟩
  | .hbm, ⟨71, _⟩ => ⟨S65536, .i32⟩
  | .hbm, ⟨72, _⟩ => ⟨S65536, .i32⟩
  | .hbm, ⟨73, _⟩ => ⟨S65536, .i32⟩
  | .hbm, ⟨74, _⟩ => ⟨S65536x1, .i32⟩
  | .hbm, ⟨75, _⟩ => ⟨S65536x1, .i32⟩
  | .hbm, ⟨76, _⟩ => ⟨S65536x2, .i32⟩
  | .hbm, ⟨77, _⟩ => ⟨S_, .f32⟩
  | .hbm, ⟨78, _⟩ => ⟨S65536, .f32⟩
  | .hbm, ⟨79, _⟩ => ⟨S8192x8192, .f32⟩
  | .hbm, ⟨80, _⟩ => ⟨S128x8192, .f32⟩
  | .hbm, ⟨81, _⟩ => ⟨S1x8192, .f32⟩
  | .hbm, ⟨82, _⟩ => ⟨S8192x8192, .f32⟩
  | .hbm, ⟨83, _⟩ => ⟨S8192x128, .f32⟩
  | .hbm, ⟨84, _⟩ => ⟨S8192x1, .f32⟩
  | .hbm, ⟨85, _⟩ => ⟨S8192x128, .f32⟩
  | .hbm, ⟨86, _⟩ => ⟨S8192, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S128x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_c_7 : Ref sig .tc := ⟨.hbm, 34, rfl⟩
abbrev main_v19 : Ref sig .tc := ⟨.hbm, 35, rfl⟩
abbrev main_v20 : Ref sig .tc := ⟨.hbm, 36, rfl⟩
abbrev main_c_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_cst_10 : Ref sig .tc := ⟨.hbm, 45, rfl⟩
abbrev main_v27 : Ref sig .tc := ⟨.hbm, 46, rfl⟩
abbrev main_c_11 : Ref sig .tc := ⟨.hbm, 47, rfl⟩
abbrev main_v28 : Ref sig .tc := ⟨.hbm, 48, rfl⟩
abbrev main_v29 : Ref sig .tc := ⟨.hbm, 49, rfl⟩
abbrev main_c_12 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_13 : Ref sig .tc := ⟨.hbm, 55, rfl⟩
abbrev main_v34 : Ref sig .tc := ⟨.hbm, 56, rfl⟩
abbrev main_v35 : Ref sig .tc := ⟨.hbm, 57, rfl⟩
abbrev main_cst_14 : Ref sig .tc := ⟨.hbm, 58, rfl⟩
abbrev main_v36 : Ref sig .tc := ⟨.hbm, 59, rfl⟩
abbrev main_c_15 : Ref sig .tc := ⟨.hbm, 60, rfl⟩
abbrev main_v37 : Ref sig .tc := ⟨.hbm, 61, rfl⟩
abbrev main_v38 : Ref sig .tc := ⟨.hbm, 62, rfl⟩
abbrev main_c_16 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_17 : Ref sig .tc := ⟨.hbm, 67, rfl⟩
abbrev main_v42 : Ref sig .tc := ⟨.hbm, 68, rfl⟩
abbrev main_v43 : Ref sig .tc := ⟨.hbm, 69, rfl⟩
abbrev main_c_18 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_19 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8192x128 : S_.BroadcastsInDim S8192x128 (![] : Fin 0 → Fin S8192x128.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S65536x128 : S_.BroadcastsInDim S65536x128 (![] : Fin 0 → Fin S65536x128.rank)
  bcast_S_S8192x1 : S_.BroadcastsInDim S8192x1 (![] : Fin 0 → Fin S8192x1.rank)
  bcast_S_S65536x1 : S_.BroadcastsInDim S65536x1 (![] : Fin 0 → Fin S65536x1.rank)
  bcast_S_S8192 : S_.BroadcastsInDim S8192 (![] : Fin 0 → Fin S8192.rank)
  bcast_S_S8192x8192 : S_.BroadcastsInDim S8192x8192 (![] : Fin 0 → Fin S8192x8192.rank)
  concatenates_S65536x1_S65536x1_S65536x2_d1 : Shape.Concatenates [S65536x1, S65536x1] S65536x2 1
  transposes_S8192x128_S128x8192_1_0 : S8192x128.Transposes [1, 0] S128x8192
  shapeCasts_S8192_S1x8192 : S8192.ShapeCasts S1x8192
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S8192x128_S65536x1_S65536x128_1_0_0_1_wf : ScatterDims.WF S8192x128 S65536x1 S65536x128 [1] [0] [0] 1
  scatter_S8192x1_S65536x1_S65536x1_1_0_0_1_wf : ScatterDims.WF S8192x1 S65536x1 S65536x1 [1] [0] [0] 1
  scatter_S8192_S65536x1_S65536_n_0_0_1_wf : ScatterDims.WF S8192 S65536x1 S65536 [] [0] [0] 1
  scatter_S8192x8192_S65536x2_S65536_n_01_01_1_wf : ScatterDims.WF S8192x8192 S65536x2 S65536 [] [0, 1] [0, 1] 1
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x8192.size a
  hwx0_1 : ∀ i : grid0.Coords, EltTy.bits .f32 = 32 ∨ (Rect.block (s := S128x8192) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x8192.size a
  hwx0_5 : ∀ i : grid0.Coords, EltTy.bits .f32 = 32 ∨ (Rect.block (s := S8192x8192) S1024x1024.size (cc0_transform_5 i) (hinb0_5 i)).WholeWords (EltTy.packing .f32)

variable [Facts₀]

def scatter_S8192x128_S65536x1_S65536x128_1_0_0_1 : ScatterDims S8192x128 S65536x1 S65536x128 where
  updateWindowDims := [1]
  insertedWindowDims := [0]
  scatterDimsToOperandDims := [0]
  indexVectorDim := 1
  wf := scatter_S8192x128_S65536x1_S65536x128_1_0_0_1_wf
def scatter_S8192x1_S65536x1_S65536x1_1_0_0_1 : ScatterDims S8192x1 S65536x1 S65536x1 where
  updateWindowDims := [1]
  insertedWindowDims := [0]
  scatterDimsToOperandDims := [0]
  indexVectorDim := 1
  wf := scatter_S8192x1_S65536x1_S65536x1_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def scatter_S8192x8192_S65536x2_S65536_n_01_01_1 : ScatterDims S8192x8192 S65536x2 S65536 where
  updateWindowDims := []
  insertedWindowDims := [0, 1]
  scatterDimsToOperandDims := [0, 1]
  indexVectorDim := 1
  wf := scatter_S8192x8192_S65536x2_S65536_n_01_01_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536 : Shape := ⟨1, ![65536]⟩
abbrev S8192x128 : Shape := ⟨2, ![8192, 128]⟩
abbrev S8192x1 : Shape := ⟨2, ![8192, 1]⟩
abbrev S8192 : Shape := ⟨1, ![8192]⟩
abbrev S_ : Shape := ⟨0, ![]⟩
abbrev S8192x8192 : Shape := ⟨2, ![8192, 8192]⟩
abbrev S65536x1 : Shape := ⟨2, ![65536, 1]⟩
abbrev S65536x2 : Shape := ⟨2, ![65536, 2]⟩
abbrev S65536x128 : Shape := ⟨2, ![65536, 128]⟩
abbrev S128x8192 : Shape := ⟨2, ![128, 8192]⟩
abbrev S1x8192 : Shape := ⟨2, ![1, 8192]⟩

abbrev nBuf : Space → Nat
  | .hbm => 92
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S8192x128, .f32⟩
  | .hbm, ⟨3, _⟩ => ⟨S8192x128, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S8192x8192, .f32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S65536x1, .i32⟩
  | .hbm, ⟨23, _⟩ => ⟨S65536x1, .i32⟩
  | .hbm, ⟨24, _⟩ => ⟨S65536x2, .i32⟩
  | .hbm, ⟨25, _⟩ => ⟨S_, .f32⟩
  | .hbm, ⟨26, _⟩ => ⟨S65536, .f32⟩
  | .hbm, ⟨27, _⟩ => ⟨S8192x8192, .f32⟩
  | .hbm, ⟨28, _⟩ => ⟨S_, .f32⟩
  | .hbm, ⟨29, _⟩ => ⟨S8192x128, .f32⟩
  | .hbm, ⟨30, _⟩ => ⟨S_, .i32⟩
  | .hbm, ⟨31, _⟩ => ⟨S65536, .i32⟩
  | .hbm, ⟨32, _⟩ => ⟨S65536, .i1⟩
  | .hbm, ⟨33, _⟩ => ⟨S_, .i32⟩
  | .hbm, ⟨34, _⟩ => ⟨S65536, .i32⟩
  | .hbm, ⟨35, _⟩ => ⟨S65536, .i32⟩
  | .hbm, ⟨36, _⟩ => ⟨S65536, .i32⟩
  | .hbm, ⟨37, _⟩ => ⟨S65536x1, .i32⟩
  | .hbm, ⟨38, _⟩ => ⟨S_, .f32⟩
  | .hbm, ⟨39, _⟩ => ⟨S65536x128, .f32⟩
  | .hbm, ⟨40, _⟩ => ⟨S8192x128, .f32⟩
  | .hbm, ⟨41, _⟩ => ⟨S_, .f32⟩
  | .hbm, ⟨42, _⟩ => ⟨S8192x128, .f32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S_, .f32⟩
  | .hbm, ⟨52, _⟩ => ⟨S65536x128, .f32⟩
  | .hbm, ⟨53, _⟩ => ⟨S8192x128, .f32⟩
  | .hbm, ⟨54, _⟩ => ⟨S_, .f32⟩
  | .hbm, ⟨55, _⟩ => ⟨S8192x1, .f32⟩
  | .hbm, ⟨56, _⟩ => ⟨S_, .i32⟩
  | .hbm, ⟨57, _⟩ => ⟨S65536, .i32⟩
  | .hbm, ⟨58, _⟩ => ⟨S65536, .i1⟩
  | .hbm, ⟨59, _⟩ => ⟨S_, .i32⟩
  | .hbm, ⟨60, _⟩ => ⟨S65536, .i32⟩
  | .hbm, ⟨61, _⟩ => ⟨S65536, .i32⟩
  | .hbm, ⟨62, _⟩ => ⟨S65536, .i32⟩
  | .hbm, ⟨63, _⟩ => ⟨S65536x1, .i32⟩
  | .hbm, ⟨64, _⟩ => ⟨S_, .f32⟩
  | .hbm, ⟨65, _⟩ => ⟨S65536x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S_, .i32⟩
  | .hbm, ⟨70, _⟩ => ⟨S65536, .i32⟩
  | .hbm, ⟨71, _⟩ => ⟨S65536, .i1⟩
  | .hbm, ⟨72, _⟩ => ⟨S_, .i32⟩
  | .hbm, ⟨73, _⟩ => ⟨S65536, .i32⟩
  | .hbm, ⟨74, _⟩ => ⟨S65536, .i32⟩
  | .hbm, ⟨75, _⟩ => ⟨S65536, .i32⟩
  | .hbm, ⟨76, _⟩ => ⟨S65536x1, .i32⟩
  | .hbm, ⟨77, _⟩ => ⟨S_, .f32⟩
  | .hbm, ⟨78, _⟩ => ⟨S65536, .f32⟩
  | .hbm, ⟨79, _⟩ => ⟨S8192, .f32⟩
  | .hbm, ⟨80, _⟩ => ⟨S128x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S1x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S8192x128, .f32⟩
  | .hbm, ⟨89, _⟩ => ⟨S8192x1, .f32⟩
  | .hbm, ⟨90, _⟩ => ⟨S8192x128, .f32⟩
  | .hbm, ⟨91, _⟩ => ⟨S8192, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_c_9 : Ref sig .tc := ⟨.hbm, 43, rfl⟩
abbrev main_v26 : Ref sig .tc := ⟨.hbm, 44, rfl⟩
abbrev main_v27 : Ref sig .tc := ⟨.hbm, 45, rfl⟩
abbrev main_c_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_cst_12 : Ref sig .tc := ⟨.hbm, 54, rfl⟩
abbrev main_v34 : Ref sig .tc := ⟨.hbm, 55, rfl⟩
abbrev main_c_13 : Ref sig .tc := ⟨.hbm, 56, rfl⟩
abbrev main_v35 : Ref sig .tc := ⟨.hbm, 57, rfl⟩
abbrev main_v36 : Ref sig .tc := ⟨.hbm, 58, rfl⟩
abbrev main_c_14 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_15 : Ref sig .tc := ⟨.hbm, 64, rfl⟩
abbrev main_v41 : Ref sig .tc := ⟨.hbm, 65, rfl⟩
abbrev main_v42 : Ref sig .tc := ⟨.hbm, 66, rfl⟩
abbrev main_cst_16 : Ref sig .tc := ⟨.hbm, 67, rfl⟩
abbrev main_v43 : Ref sig .tc := ⟨.hbm, 68, rfl⟩
abbrev main_c_17 : Ref sig .tc := ⟨.hbm, 69, rfl⟩
abbrev main_v44 : Ref sig .tc := ⟨.hbm, 70, rfl⟩
abbrev main_v45 : Ref sig .tc := ⟨.hbm, 71, rfl⟩
abbrev main_c_18 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_19 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S_S8192x128 : S_.BroadcastsInDim S8192x128 (![] : Fin 0 → Fin S8192x128.rank)
  bcast_S_S65536x128 : S_.BroadcastsInDim S65536x128 (![] : Fin 0 → Fin S65536x128.rank)
  bcast_S_S8192x1 : S_.BroadcastsInDim S8192x1 (![] : Fin 0 → Fin S8192x1.rank)
  bcast_S_S65536x1 : S_.BroadcastsInDim S65536x1 (![] : Fin 0 → Fin S65536x1.rank)
  bcast_S_S8192 : S_.BroadcastsInDim S8192 (![] : Fin 0 → Fin S8192.rank)
  transposes_S8192x128_S128x8192_1_0 : S8192x128.Transposes [1, 0] S128x8192
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  scatter_S8192x8192_S65536x2_S65536_n_01_01_1_wf : ScatterDims.WF S8192x8192 S65536x2 S65536 [] [0, 1] [0, 1] 1
  scatter_S8192x128_S65536x1_S65536x128_1_0_0_1_wf : ScatterDims.WF S8192x128 S65536x1 S65536x128 [1] [0] [0] 1
  scatter_S8192x1_S65536x1_S65536x1_1_0_0_1_wf : ScatterDims.WF S8192x1 S65536x1 S65536x1 [1] [0] [0] 1
  scatter_S8192_S65536x1_S65536_n_0_0_1_wf : ScatterDims.WF S8192 S65536x1 S65536 [] [0] [0] 1
  dot_S8192x128_S128x8192_S8192x8192_1_0_0_1_n_n_wf : DotDims.WF S8192x128 S128x8192 S8192x8192 [1] [0] [0] [1] [] []

variable [Facts₀]

def scatter_S8192x8192_S65536x2_S65536_n_01_01_1 : ScatterDims S8192x8192 S65536x2 S65536 where
  updateWindowDims := []
  insertedWindowDims := [0, 1]
  scatterDimsToOperandDims := [0, 1]
  indexVectorDim := 1
  wf := scatter_S8192x8192_S65536x2_S65536_n_01_01_1_wf
def scatter_S8192x128_S65536x1_S65536x128_1_0_0_1 : ScatterDims S8192x128 S65536x1 S65536x128 where
  updateWindowDims := [1]
  insertedWindowDims := [0]
  scatterDimsToOperandDims := [0]
  indexVectorDim := 1
  wf := scatter_S8192x128_S65536x1_S65536x128_1_0_0_1_wf
def scatter_S8192x1_S65536x1_S65536x1_1_0_0_1 : ScatterDims S8192x1 S65536x1 S65536x1 where
  updateWindowDims := [1]
  insertedWindowDims := [0]
  scatterDimsToOperandDims := [0]
  indexVectorDim := 1
  wf := scatter_S8192x1_S65536x1_S65536x1_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.MaskedScore.lean ====
/-
  The masked score matrix of a factorization model, as one function of the argument arrays.

  Users `u` and items `i` each range over 8192 rows; `A` and `B` hold their 128 latent factors, `ub` a bias per
  user (a column), `ib` a bias per item, and `M` is a weight per (user, item) pair. Entry (u, i) of the result is

      ( (Σ_k A[u,k] · B[i,k])  +  ub[u,0]  +  ib[i] ) · M[u,i]

  on the extended reals, with exactly this grouping of the two additions: nothing here is rearranged, so no law of the
  extended reals that could fail at an infinity is used anywhere. Both programs compute this function; the other modules
  show it for each side.
-/
import Idealize.ShloMosaic.PureOps.Ideal
import Idealize.ShloMosaic.Lib.ValueIdx

noncomputable section

namespace Cert.MaskedScore

open Idealize.ShloMosaic Idealize.ShloMosaic.ValueIdx

/-- The factor matrices' shape, the user-bias column's, the item-bias vector's, and the score matrix's. -/
abbrev Factors : Shape := ⟨2, ![8192, 128]⟩
abbrev BiasCol : Shape := ⟨2, ![8192, 1]⟩
abbrev BiasVec : Shape := ⟨1, ![8192]⟩
abbrev Scores : Shape := ⟨2, ![8192, 8192]⟩

/-- Entry (u, i): the inner product of user `u`'s and item `i`'s factor rows, plus the user's bias, plus the item's
    bias, the sum then weighted by the pair's entry of `M`. -/
def entry (A B : Factors.Idx → EReal) (ub : BiasCol.Idx → EReal) (ib : BiasVec.Idx → EReal) (M : Scores.Idx → EReal)
    (u i : Fin 8192) : EReal :=
  ((∑ k : Fin 128, A (ix2 u k) * B (ix2 i k)) + ub (ix2 u 0) + ib (ix1 i)) * M (ix2 u i)

/-- The whole matrix, index by index. -/
def score (A B : Factors.Idx → EReal) (ub : BiasCol.Idx → EReal) (ib : BiasVec.Idx → EReal) (M : Scores.Idx → EReal) :
    Scores.Idx → EReal :=
  fun j => entry A B ub ib M (j 0) (j 1)

theorem score_ix2 (A B : Factors.Idx → EReal) (ub : BiasCol.Idx → EReal) (ib : BiasVec.Idx → EReal) (M : Scores.Idx → EReal)
    (u i : Fin 8192) : score A B ub ib M (ix2 u i) = entry A B ub ib M u i := rfl

end Cert.MaskedScore

end
-- ==== Proof.TilePayload.lean ====
/-
  One tile of the kernel: what the body stores, read at an entry of the tile.

  At a grid point the body loads a 1024×128 tile `a` of user factors, a 128×1024 tile `b` of transposed item factors, a
  1024×1 column `cu` of user biases, a 1×1024 row `ci` of item biases and a 1024×1024 tile `w` of the weights, and stores

      ((a · b  +  cu spread along rows)  +  ci spread along columns)  ⊙  w .

  On the extended reals the narrowing of `a` and `b` to 16 bits is the identity and the product into a zero accumulator is
  the plain sum over the 128 shared coordinates, so entry (p, q) of the stored tile is

      ((Σ_k a[p,k] · b[k,q]) + cu[p,0] + ci[0,q]) · w[p,q].
-/
import proofs.«168958_j87557203296997_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The product's left operand index at output (p, q) and shared coordinate k is (p, k): the first coordinate is the
    output's row … -/
theorem lhs_row (j : S1024x1024.Idx) (r : dot_S1024x128_S128x1024_S1024x1024_1_0_0_1_n_n.contr.Idx) :
    (dot_S1024x128_S128x1024_S1024x1024_1_0_0_1_n_n.lhsIdx j r 0).val = (j 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
/-- … and the second the shared coordinate. -/
theorem lhs_shared (j : S1024x1024.Idx) (r : dot_S1024x128_S128x1024_S1024x1024_1_0_0_1_n_n.contr.Idx) :
    (dot_S1024x128_S128x1024_S1024x1024_1_0_0_1_n_n.lhsIdx j r 1).val = (r ⟨0, by decide⟩).val :=
  dot_S1024x128_S128x1024_S1024x1024_1_0_0_1_n_n.lhsIdx_val_of_single rfl j r
/-- The right operand's index is (k, q): the shared coordinate first … -/
theorem rhs_shared (j : S1024x1024.Idx) (r : dot_S1024x128_S128x1024_S1024x1024_1_0_0_1_n_n.contr.Idx) :
    (dot_S1024x128_S128x1024_S1024x1024_1_0_0_1_n_n.rhsIdx j r 0).val = (r ⟨0, by decide⟩).val :=
  dot_S1024x128_S128x1024_S1024x1024_1_0_0_1_n_n.rhsIdx_val_of_single rfl j r
/-- … then the output's column. -/
theorem rhs_col (j : S1024x1024.Idx) (r : dot_S1024x128_S128x1024_S1024x1024_1_0_0_1_n_n.contr.Idx) :
    (dot_S1024x128_S128x1024_S1024x1024_1_0_0_1_n_n.rhsIdx j r 1).val = (j 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The tile product into a zero accumulator, at (p, q): row `p` of the left tile against column `q` of the right. -/
theorem product_apply (l : FVec Ideal S1024x128 .bf16) (r : FVec Ideal S128x1024 .bf16) (p q : Fin 1024) :
    FloatOps.matmul dot_S1024x128_S128x1024_S1024x1024_1_0_0_1_n_n none l r (constant S1024x1024 .f32 0x00000000#32) (ix2 p q)
      = ∑ k : Fin 128, l (ix2 p k) * r (ix2 k q) := by
  refine (Ideal.matmul_constant_zero_apply dot_S1024x128_S128x1024_S1024x1024_1_0_0_1_n_n none l r (ix2 p q)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k :=
    funext fun a => Fin.ext (by
      match a with
      | ⟨0, _⟩ => exact lhs_row _ _
      | ⟨1, _⟩ => exact (lhs_shared _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q :=
    funext fun a => Fin.ext (by
      match a with
      | ⟨0, _⟩ => exact (rhs_shared _ _).trans hk
      | ⟨1, _⟩ => exact rhs_col _ _)
  rw [el, er]

/-- A bias column spread along the rows of the tile: entry (p, q) is the column's entry p. -/
theorem spread_col (x : FVec Ideal S1024x1 .f32) (p q : Fin 1024) :
    broadcastTo S1024x1024 x broadcasts_S1024x1_S1024x1024 (ix2 p q) = x (ix2 p 0) :=
  broadcastTo_apply x broadcasts_S1024x1_S1024x1024 (ix2 p q) (ix2 p 0) (fun a => by
    match a with
    | ⟨0, _⟩ => show p.val = if (1024 : Nat) = 1 then 0 else p.val; rw [if_neg (by decide)]
    | ⟨1, _⟩ => show 0 = if (1 : Nat) = 1 then 0 else q.val; rw [if_pos rfl])

/-- A bias row spread along the columns of the tile: entry (p, q) is the row's entry q. -/
theorem spread_row (x : FVec Ideal S1x1024 .f32) (p q : Fin 1024) :
    broadcastTo S1024x1024 x broadcasts_S1x1024_S1024x1024 (ix2 p q) = x (ix2 0 q) :=
  broadcastTo_apply x broadcasts_S1x1024_S1024x1024 (ix2 p q) (ix2 0 q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-- THE STORED TILE AT AN ENTRY. -/
theorem stored_apply (a : Vec Ideal S1024x128 .f32) (b : Vec Ideal S128x1024 .f32) (cu : Vec Ideal S1024x1 .f32)
    (ci : Vec Ideal S1x1024 .f32) (w : Vec Ideal S1024x1024 .f32) (p q : Fin 1024) :
    k0_pay1 a b cu ci w (ix2 p q)
      = ((∑ k : Fin 128, a (ix2 p k) * b (ix2 k q)) + cu (ix2 p 0) + ci (ix2 0 q)) * w (ix2 p q) := by
  unfold k0_pay1
  simp only [shapeCast_self]
  show ((FloatOps.matmul (F := Ideal) dot_S1024x128_S128x1024_S1024x1024_1_0_0_1_n_n none (truncf (F := Ideal) .bf16 a bitsLt_bf16_f32) (truncf (F := Ideal) .bf16 b bitsLt_bf16_f32)
      (constant (F := Ideal) S1024x1024 .f32 0x00000000#32) (ix2 p q)
      + broadcastTo S1024x1024 cu broadcasts_S1024x1_S1024x1024 (ix2 p q))
      + broadcastTo S1024x1024 ci broadcasts_S1x1024_S1024x1024 (ix2 p q)) * w (ix2 p q) = _
  rw [product_apply, spread_col, spread_row]
  rfl

end Cert.KernelIdeal.Tile

end
-- ==== Proof.EntryArrays.lean ====
/-
  The five arrays the kernel's grid is launched on, as functions of the program's arguments.

  Before the launch the host lines build, from the two index vectors, a 0/1 weight matrix (a scatter of ones into zeros
  at the wrapped (user, item) pairs), transpose the item factors to 128×8192, and view the item-bias vector as a 1×8192
  row. The user factors and the user-bias column are launched on as they arrived. The weight matrix is named here once,
  as one function `mask` of the two index vectors, and is never opened: both programs build it by the same lines.
-/
import proofs.«168958_j87557203296997_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-- An index vector with its negative entries wrapped by the extent 8192, as a column: one coordinate of the scatter's
    index pairs. -/
def wrapped (x : (⟨S65536, .i32⟩ : BufTy).Contents (Elt Ideal)) : (⟨S65536x1, .i32⟩ : BufTy).Contents (Elt Ideal) :=
  broadcastInDim S65536x1 ![0] bcast_S65536_S65536x1_0
    (select (cmpi .slt x (broadcastInDim S65536 ![] bcast_S_S65536 (constantI S_ 32 0#32)))
      (addi x (broadcastInDim S65536 ![] bcast_S_S65536 (constantI S_ 32 8192#32))) x)

/-- The weight matrix: ones scattered into a zero matrix at the (user, item) pairs of the two index vectors. -/
def mask (x0 x1 : (⟨S65536, .i32⟩ : BufTy).Contents (Elt Ideal)) : (⟨S8192x8192, .f32⟩ : BufTy).Contents (Elt Ideal) :=
  Host.scatter scatter_S8192x8192_S65536x2_S65536_n_01_01_1 (fun _ b => b)
    (broadcastInDim S8192x8192 ![] bcast_S_S8192x8192 (constant (F := Ideal) S_ .f32 0x00000000#32))
    (concatenate S65536x2 1 [⟨S65536x1, wrapped x0⟩, ⟨S65536x1, wrapped x1⟩] concatenates_S65536x1_S65536x1_S65536x2_d1)
    (broadcastInDim S65536 ![] bcast_S_S65536 (constant (F := Ideal) S_ .f32 0x3F800000#32))

variable (m : (ℓ : Loc nD τ sig) → Buf (Elt Ideal) ℓ)

/-- The grid's second operand is the item factors transposed. -/
theorem item_factors_T (c : Dev nD) :
    (V m c main_v52 : S128x8192.Idx → EReal)
      = transpose S128x8192 [1, 0] (m ((c : Thread nD τ).loc main_arg3)) transposes_S8192x128_S128x8192_1_0 := by
  show StableHlo.after hostOps0 (fun b => m (c, b)) (Proc.devRef .tc main_v52) = _
  after_results_simp <;> rfl

/-- The grid's fourth operand is the item-bias vector viewed as one row. -/
theorem item_bias_row (c : Dev nD) :
    (V m c main_v53 : S1x8192.Idx → EReal)
      = shapeCast S1x8192 (m ((c : Thread nD τ).loc main_arg5)) shapeCasts_S8192_S1x8192 := by
  show StableHlo.after hostOps0 (fun b => m (c, b)) (Proc.devRef .tc main_v53) = _
  after_results_simp <;> rfl

set_option maxHeartbeats 8000000 in
/-- The grid's fifth operand is the weight matrix of the two index vectors. -/
theorem weights (c : Dev nD) :
    (V m c main_v51 : S8192x8192.Idx → EReal)
      = mask (m ((c : Thread nD τ).loc main_arg0)) (m ((c : Thread nD τ).loc main_arg1)) := by
  show StableHlo.after hostOps0 (fun b => m (c, b)) (Proc.devRef .tc main_v51) = _
  after_results_simp <;> rfl

/-- The transposed item factors at (k, i) are the item factors at (i, k). -/
theorem item_factors_T_apply (c : Dev nD) (k : Fin 128) (i : Fin 8192) :
    (V m c main_v52 : S128x8192.Idx → EReal) (ix2 k i)
      = (m ((c : Thread nD τ).loc main_arg3) : S8192x128.Idx → EReal) (ix2 i k) := by
  rw [item_factors_T]
  exact transpose_ix2_apply _ transposes_S8192x128_S128x8192_1_0 k i

/-- The item-bias row at (0, i) is the item-bias vector at i. -/
theorem item_bias_row_apply (c : Dev nD) (z : Fin 1) (i : Fin 8192) :
    (V m c main_v53 : S1x8192.Idx → EReal) (ix2 z i)
      = (m ((c : Thread nD τ).loc main_arg5) : S8192.Idx → EReal) (ix1 i) := by
  rw [item_bias_row]
  exact shapeCast_a_1a_apply _ shapeCasts_S8192_S1x8192 z i

end Cert.KernelIdeal.Entry

end
-- ==== Proof.ScoreArray.lean ====
/-
  The kernel's result array is the masked score matrix.

  The grid is 8 × 8. At point (r, s) the output tile is rows 1024r … 1024r + 1023 and columns 1024s … 1024s + 1023 of the
  8192 × 8192 result; the body is handed rows 1024r … of the user factors and of the user-bias column, columns 1024s … of
  the transposed item factors and of the item-bias row, and the same tile of the weights. So entry (p, q) of the stored
  tile — ((Σ_k a[p,k] · b[k,q]) + cu[p,0] + ci[0,q]) · w[p,q] — is entry (1024r + p, 1024s + q) of the masked score matrix
  of the program's arguments, and the 64 tiles cover the result: the array ends holding that matrix.
-/
import proofs.«168958_j87557203296997_1_alg».proof.Proof.Gen.KernelIdeal.Frame
import proofs.«168958_j87557203296997_1_alg».proof.Proof.MaskedScore
import proofs.«168958_j87557203296997_1_alg».proof.Proof.TilePayload
import proofs.«168958_j87557203296997_1_alg».proof.Proof.EntryArrays
import Idealize.ShloMosaic.Lib.Pipeline.Value
import Idealize.ShloMosaic.Lib.Tactic

set_option maxRecDepth 16384

noncomputable section

namespace Cert.KernelIdeal.ScoreArray

open Cert.KernelIdeal Cert.KernelIdeal.Gen Idealize.ShloMosaic Idealize.ShloMosaic.TcCoe Idealize.SL.Sem
open Idealize.ShloMosaic.Pipeline (Dat)
open Idealize.ShloMosaic.ValueIdx Cert.MaskedScore Cert.KernelIdeal.Entry Cert.KernelIdeal.Tile

variable (m : (ℓ : Loc nD τ sig) → Buf (Elt Ideal) ℓ)

theorem hz : (![0, 0] : Fin 2 → Nat) = fun _ => 0 := funext fun a => by fin_cases a <;> rfl

/-- The masked score matrix of the program's arguments. -/
abbrev result (c : Dev nD) : S8192x8192.Idx → EReal :=
  score (m ((c : Thread nD τ).loc main_arg2)) (m ((c : Thread nD τ).loc main_arg3)) (m ((c : Thread nD τ).loc main_arg4))
    (m ((c : Thread nD τ).loc main_arg5)) (mask (m ((c : Thread nD τ).loc main_arg0)) (m ((c : Thread nD τ).loc main_arg1)))

/-- Which tile each operand's block is, at every grid point, against the output's tile (r, s): the user factors and the
    user-bias column at block row r, the transposed item factors and the item-bias row at block column s, the weights
    at (r, s); and r, s ≤ 7. Decided over the 64 points. -/
theorem tiles : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = win0_5.index t (0 : Fin 2) ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-- Every tile (r, s) of the result is some point's. -/
theorem tiles_onto : ∀ (r s : Fin 8), ∃ t : Fin cfg0.N, win0_5.index t = ![r.val, s.val] :=
  (by decide +kernel : ∀ (r s : Fin 8), ∃ t : Fin grid0.N, win0_5.index t = ![r.val, s.val])

/-! ## Each operand's block, read where the output's tile says -/

/-- The user-factor tile at a point holds rows 1024r + p of the user factors. -/
theorem user_tile (c : Dev nD) (t : Fin cfg0.N) (p : Fin 1024) (k : Fin 128) (u : Fin 8192)
    (hu : u.val = win0_5.index t (0 : Fin 2) * 1024 + p.val) :
    (iblk m c 0 t : S1024x128.Idx → EReal) (ix2 p k) = (m ((c : Thread nD τ).loc main_arg2) : S8192x128.Idx → EReal) (ix2 u k) := by
  obtain ⟨e00, e01, -⟩ := tiles t
  unfold iblk
  rw [View.read_apply]
  show V m c main_arg2 _ = _
  rw [V_main_arg2]
  refine congrArg _ (funext fun a => Fin.ext ?_)
  match a with
  | ⟨0, _⟩ => show win0_0.index t (0 : Fin 2) * 1024 + 1 * p.val = u.val; omega
  | ⟨1, _⟩ => show win0_0.index t (1 : Fin 2) * 128 + 1 * k.val = k.val; omega

/-- The transposed item-factor tile holds columns 1024s + q: the item factors' rows. -/
theorem item_tile (c : Dev nD) (t : Fin cfg0.N) (k : Fin 128) (q : Fin 1024) (i : Fin 8192)
    (hi : i.val = win0_5.index t (1 : Fin 2) * 1024 + q.val) :
    (iblk m c 1 t : S128x1024.Idx → EReal) (ix2 k q) = (m ((c : Thread nD τ).loc main_arg3) : S8192x128.Idx → EReal) (ix2 i k) := by
  obtain ⟨-, -, e10, e11, -⟩ := tiles t
  unfold iblk
  rw [View.read_apply]
  show V m c main_v52 _ = _
  refine Eq.trans (congrArg _ (funext fun a => Fin.ext ?_)) (item_factors_T_apply m c k i)
  match a with
  | ⟨0, _⟩ => show win0_1.index t (0 : Fin 2) * 128 + 1 * k.val = k.val; omega
  | ⟨1, _⟩ => show win0_1.index t (1 : Fin 2) * 1024 + 1 * q.val = i.val; omega

/-- The user-bias block holds rows 1024r + p of the column. -/
theorem user_bias_tile (c : Dev nD) (t : Fin cfg0.N) (p : Fin 1024) (z : Fin 1) (u : Fin 8192)
    (hu : u.val = win0_5.index t (0 : Fin 2) * 1024 + p.val) :
    (iblk m c 2 t : S1024x1.Idx → EReal) (ix2 p z) = (m ((c : Thread nD τ).loc main_arg4) : S8192x1.Idx → EReal) (ix2 u z) := by
  obtain ⟨-, -, -, -, e20, e21, -⟩ := tiles t
  unfold iblk
  rw [View.read_apply]
  show V m c main_arg4 _ = _
  rw [V_main_arg4]
  refine congrArg _ (funext fun a => Fin.ext ?_)
  match a with
  | ⟨0, _⟩ => show win0_2.index t (0 : Fin 2) * 1024 + 1 * p.val = u.val; omega
  | ⟨1, _⟩ => show win0_2.index t (1 : Fin 2) * 1 + 1 * z.val = z.val; omega

/-- The item-bias block holds columns 1024s + q of the row: the item-bias vector's entries. -/
theorem item_bias_tile (c : Dev nD) (t : Fin cfg0.N) (z : Fin 1) (q : Fin 1024) (i : Fin 8192)
    (hi : i.val = win0_5.index t (1 : Fin 2) * 1024 + q.val) :
    (iblk m c 3 t : S1x1024.Idx → EReal) (ix2 z q) = (m ((c : Thread nD τ).loc main_arg5) : S8192.Idx → EReal) (ix1 i) := by
  obtain ⟨-, -, -, -, -, -, e30, e31, -⟩ := tiles t
  unfold iblk
  rw [View.read_apply]
  show V m c main_v53 _ = _
  refine Eq.trans (congrArg _ (funext fun a => Fin.ext ?_)) (item_bias_row_apply m c z i)
  match a with
  | ⟨0, _⟩ => show win0_3.index t (0 : Fin 2) * 1 + 1 * z.val = z.val; omega
  | ⟨1, _⟩ => show win0_3.index t (1 : Fin 2) * 1024 + 1 * q.val = i.val; omega

/-- The weights' block is the output's own tile of the weight matrix. -/
theorem weight_tile (c : Dev nD) (t : Fin cfg0.N) (p q : Fin 1024) (u i : Fin 8192)
    (hu : u.val = win0_5.index t (0 : Fin 2) * 1024 + p.val) (hi : i.val = win0_5.index t (1 : Fin 2) * 1024 + q.val) :
    (iblk m c 4 t : S1024x1024.Idx → EReal) (ix2 p q)
      = mask (m ((c : Thread nD τ).loc main_arg0)) (m ((c : Thread nD τ).loc main_arg1)) (ix2 u i) := by
  obtain ⟨-, -, -, -, -, -, -, -, e40, e41, -⟩ := tiles t
  unfold iblk
  rw [View.read_apply]
  show V m c main_v51 _ = _
  rw [weights]
  refine congrArg _ (funext fun a => Fin.ext ?_)
  match a with
  | ⟨0, _⟩ => show win0_4.index t (0 : Fin 2) * 1024 + 1 * p.val = u.val; omega
  | ⟨1, _⟩ => show win0_4.index t (1 : Fin 2) * 1024 + 1 * q.val = i.val; omega

/-! ## What a point writes back -/

/-- Entry (p, q) of the tile the body stores at point `t` is entry (1024r + p, 1024s + q) of the masked score matrix. -/
theorem stored_entry (c : Dev nD) (t : Fin cfg0.N) (p q : Fin 1024) (u i : Fin 8192)
    (hu : u.val = win0_5.index t (0 : Fin 2) * 1024 + p.val) (hi : i.val = win0_5.index t (1 : Fin 2) * 1024 + q.val) :
    k0_pay1 (iblk m c 0 t) (iblk m c 1 t) (iblk m c 2 t) (iblk m c 3 t) (iblk m c 4 t) (ix2 p q) = result m c (ix2 u i) := by
  refine (stored_apply (iblk m c 0 t) (iblk m c 1 t) (iblk m c 2 t) (iblk m c 3 t) (iblk m c 4 t) p q).trans ?_
  show _ = entry (m ((c : Thread nD τ).loc main_arg2)) (m ((c : Thread nD τ).loc main_arg3)) (m ((c : Thread nD τ).loc main_arg4))
    (m ((c : Thread nD τ).loc main_arg5)) (mask (m ((c : Thread nD τ).loc main_arg0)) (m ((c : Thread nD τ).loc main_arg1))) u i
  unfold entry
  rw [user_bias_tile m c t p 0 u hu, item_bias_tile m c t 0 q i hi, weight_tile m c t p q u i hu hi]
  simp only [fun k => user_tile m c t p k u hu, fun k => item_tile m c t k q i hi]

/-- WHAT POINT `t` WRITES BACK is its tile of the masked score matrix. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S1024x128) hz, View.ld_unit_zero (S := S128x1024) hz, View.ld_unit_zero (S := S1024x1) hz,
    View.ld_unit_zero (S := S1x1024) hz, View.ld_unit_zero (S := S1024x1024) hz]
  obtain ⟨-, -, -, -, -, -, -, -, -, -, b0, b1⟩ := tiles t
  funext y
  obtain ⟨p, q, rfl⟩ : ∃ (p q : Fin 1024), (y : S1024x1024.Idx) = ix2 p q := ⟨y 0, y 1, eq_ix2 (n0 := 1024) (n1 := 1024) y⟩
  have hu : win0_5.index t (0 : Fin 2) * 1024 + p.val < 8192 := by have := p.isLt; omega
  have hi : win0_5.index t (1 : Fin 2) * 1024 + q.val < 8192 := by have := q.isLt; omega
  refine (stored_entry m c t p q ⟨_, hu⟩ ⟨_, hi⟩ rfl rfl).trans ?_
  rw [View.read_apply]
  refine congrArg (result m c) (funext fun a => Fin.ext ?_)
  match a with
  | ⟨0, _⟩ => show win0_5.index t (0 : Fin 2) * 1024 + p.val = win0_5.index t (0 : Fin 2) * 1024 + 1 * p.val; omega
  | ⟨1, _⟩ => show win0_5.index t (1 : Fin 2) * 1024 + q.val = win0_5.index t (1 : Fin 2) * 1024 + 1 * q.val; omega

/-! ## The tiles cover the result -/

/-- An index of the result is in point `t`'s tile iff each coordinate is in the tile's range on its axis. -/
theorem mem_tile (t : Fin cfg0.N) (j : S8192x8192.Idx) :
    j ∈ ((cfg0.win 5).blk t).view.set ↔ ∀ a : Fin 2, win0_5.index t a * S1024x1024.size a ≤ (j a).val ∧ (j a).val < win0_5.index t a * S1024x1024.size a + S1024x1024.size a := by
  show j ∈ ((View.whole main_v54).slice (win0_5.rect t)).set ↔ _
  rw [View.set_slice_whole, Rect.mem_set_unit]
  exact Iff.rfl

/-- Entry (u, i) lies in the tile of the point whose output block is (u / 1024, i / 1024). -/
theorem covered (j : S8192x8192.Idx) :
    ∃ t : Fin cfg0.N, (cfg0.win 5).flush t = true ∧ j ∈ ((cfg0.win 5).blk t).view.set := by
  have h0 : (j 0).val < 8192 := (j 0).isLt
  have h1 : (j 1).val < 8192 := (j 1).isLt
  obtain ⟨t, ht⟩ := tiles_onto ⟨(j 0).val / 1024, by omega⟩ ⟨(j 1).val / 1024, by omega⟩
  have q0 : win0_5.index t (0 : Fin 2) = (j 0).val / 1024 := congrFun ht 0
  have q1 : win0_5.index t (1 : Fin 2) = (j 1).val / 1024 := congrFun ht 1
  refine ⟨t, flush0_5 t, ?_⟩
  rw [mem_tile]
  intro a
  match a with
  | ⟨0, _⟩ => show win0_5.index t (0 : Fin 2) * 1024 ≤ (j 0).val ∧ (j 0).val < win0_5.index t (0 : Fin 2) * 1024 + 1024; omega
  | ⟨1, _⟩ => show win0_5.index t (1 : Fin 2) * 1024 ≤ (j 1).val ∧ (j 1).val < win0_5.index t (1 : Fin 2) * 1024 + 1024; omega

/-- THE RESULT ARRAY after the grid is the masked score matrix of the program's arguments. -/
theorem final (c : Dev nD) : (dats m 0 c).arrAt 5 cfg0.N = result m c :=
  (dats m 0 c).arrAt_eq_of_cover 5 (result m c) (fun t _ => flushed_eq m c t) covered

end Cert.KernelIdeal.ScoreArray

end
-- ==== Proof.HostProducts.lean ====
/-
  The four results the host computes beside the grid: each factor or bias array times a 0/1 array.

  Before the launch the host lines scatter ones into zero arrays at the wrapped user indices (a row mask for the user
  factors and one for the user-bias column) and at the wrapped item indices (a row mask for the item factors and a mask
  for the item-bias vector). After the grid four products are taken: user factors × their row mask, user biases × theirs,
  item factors × theirs, item biases × theirs. Each mask is named once as a function of an index vector and is never
  opened; the grid leaves the argument arrays it was launched on unchanged, so each product is the product of the
  program's argument and its mask.
-/
import proofs.«168958_j87557203296997_1_alg».proof.Proof.Gen.KernelIdeal.Frame
import proofs.«168958_j87557203296997_1_alg».proof.Proof.EntryArrays
import Idealize.ShloMosaic.Lib.StableHlo.Run
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo
open Idealize.ShloMosaic.Pipeline (Dat)

/-- Ones scattered into the rows of a zero 8192×128 matrix that an index vector names. -/
def factorRows (x : (⟨S65536, .i32⟩ : BufTy).Contents (Elt Ideal)) : (⟨S8192x128, .f32⟩ : BufTy).Contents (Elt Ideal) :=
  Host.scatter scatter_S8192x128_S65536x1_S65536x128_1_0_0_1 (fun _ b => b)
    (broadcastInDim S8192x128 ![] bcast_S_S8192x128 (constant (F := Ideal) S_ .f32 0x00000000#32))
    (wrapped x)
    (broadcastInDim S65536x128 ![] bcast_S_S65536x128 (constant (F := Ideal) S_ .f32 0x3F800000#32))

/-- Ones scattered into the rows of a zero 8192×1 column that an index vector names. -/
def biasColRows (x : (⟨S65536, .i32⟩ : BufTy).Contents (Elt Ideal)) : (⟨S8192x1, .f32⟩ : BufTy).Contents (Elt Ideal) :=
  Host.scatter scatter_S8192x1_S65536x1_S65536x1_1_0_0_1 (fun _ b => b)
    (broadcastInDim S8192x1 ![] bcast_S_S8192x1 (constant (F := Ideal) S_ .f32 0x00000000#32))
    (wrapped x)
    (broadcastInDim S65536x1 ![] bcast_S_S65536x1 (constant (F := Ideal) S_ .f32 0x3F800000#32))

/-- Ones scattered into the entries of a zero vector of 8192 that an index vector names. -/
def biasVecEntries (x : (⟨S65536, .i32⟩ : BufTy).Contents (Elt Ideal)) : (⟨S8192, .f32⟩ : BufTy).Contents (Elt Ideal) :=
  Host.scatter scatter_S8192_S65536x1_S65536_n_0_0_1 (fun _ b => b)
    (broadcastInDim S8192 ![] bcast_S_S8192 (constant (F := Ideal) S_ .f32 0x00000000#32))
    (wrapped x)
    (broadcastInDim S65536 ![] bcast_S_S65536 (constant (F := Ideal) S_ .f32 0x3F800000#32))

variable (m : (ℓ : Loc nD τ sig) → Buf (Elt Ideal) ℓ)

/-! ## The masks as the host lines before the grid leave them -/

set_option maxHeartbeats 8000000 in
theorem user_factor_mask (c : Dev nD) :
    (V m c main_v8 : S8192x128.Idx → EReal) = factorRows (m ((c : Thread nD τ).loc main_arg0)) := by
  show StableHlo.after hostOps0 (fun b => m (c, b)) (Proc.devRef .tc main_v8) = _
  after_results_simp <;> rfl

set_option maxHeartbeats 8000000 in
theorem item_factor_mask (c : Dev nD) :
    (V m c main_v17 : S8192x128.Idx → EReal) = factorRows (m ((c : Thread nD τ).loc main_arg1)) := by
  show StableHlo.after hostOps0 (fun b => m (c, b)) (Proc.devRef .tc main_v17) = _
  after_results_simp <;> rfl

set_option maxHeartbeats 8000000 in
theorem user_bias_mask (c : Dev nD) :
    (V m c main_v26 : S8192x1.Idx → EReal) = biasColRows (m ((c : Thread nD τ).loc main_arg0)) := by
  show StableHlo.after hostOps0 (fun b => m (c, b)) (Proc.devRef .tc main_v26) = _
  after_results_simp <;> rfl

set_option maxHeartbeats 8000000 in
theorem item_bias_mask (c : Dev nD) :
    (V m c main_v35 : S8192.Idx → EReal) = biasVecEntries (m ((c : Thread nD τ).loc main_arg1)) := by
  show StableHlo.after hostOps0 (fun b => m (c, b)) (Proc.devRef .tc main_v35) = _
  after_results_simp <;> rfl

/-! ## The four products after the grid -/

/-- What the lines after the grid find in a buffer the grid does not stage: what the lines before it left. -/
theorem tail_other (c : Dev nD) (b : Ref sig .tc) (hb : ∀ w, Pipeline.arrRef spec0 w ≠ b) :
    Pipeline.withArrays spec0 c (V0 m c) (fun w => (dats m 0 c).arrAt w cfg0.N) (Proc.devRef .tc b) = V m c b :=
  Pipeline.withArrays_of_ne spec0 c (V0 m c) _ b hb

/-- What they find in the user factors, the grid's first operand: the argument, which the grid only reads. -/
theorem tail_user_factors (c : Dev nD) :
    Pipeline.withArrays spec0 c (V0 m c) (fun w => (dats m 0 c).arrAt w cfg0.N) (Proc.devRef .tc main_arg2)
      = m ((c : Thread nD τ).loc main_arg2) :=
  (Pipeline.withArrays_arr spec0 launch0.win.arr_inj c (V0 m c) (fun w => (dats m 0 c).arrAt w cfg0.N) 0).trans
    (((dats m 0 c).arrAt_in 0 rfl _).trans ((A_eq m c 0).trans (V_main_arg2 m c)))

/-- And in the user-bias column, its third operand. -/
theorem tail_user_bias (c : Dev nD) :
    Pipeline.withArrays spec0 c (V0 m c) (fun w => (dats m 0 c).arrAt w cfg0.N) (Proc.devRef .tc main_arg4)
      = m ((c : Thread nD τ).loc main_arg4) :=
  (Pipeline.withArrays_arr spec0 launch0.win.arr_inj c (V0 m c) (fun w => (dats m 0 c).arrAt w cfg0.N) 2).trans
    (((dats m 0 c).arrAt_in 2 rfl _).trans ((A_eq m c 2).trans (V_main_arg4 m c)))

/-- The second result: the user factors times their row mask. -/
theorem user_factor_product (c : Dev nD) :
    Pipeline.afterTail₀ cfgs (dats m) 0 (V0 m) [hostOps1] c main_v55
      = mulf (F := Ideal) (s := S8192x128) (φ := .f32) (m ((c : Thread nD τ).loc main_arg2)) (factorRows (m ((c : Thread nD τ).loc main_arg0))) := by
  unfold Pipeline.afterTail₀
  show StableHlo.after hostOps1 _ (Proc.devRef .tc main_v55) = _
  after_results
  rw [tail_user_factors m c, tail_other m c main_v8 (by decide), user_factor_mask]

/-- The third result: the user biases times their row mask. -/
theorem user_bias_product (c : Dev nD) :
    Pipeline.afterTail₀ cfgs (dats m) 0 (V0 m) [hostOps1] c main_v56
      = mulf (F := Ideal) (s := S8192x1) (φ := .f32) (m ((c : Thread nD τ).loc main_arg4)) (biasColRows (m ((c : Thread nD τ).loc main_arg0))) := by
  unfold Pipeline.afterTail₀
  show StableHlo.after hostOps1 _ (Proc.devRef .tc main_v56) = _
  after_results
  rw [tail_user_bias m c, tail_other m c main_v26 (by decide), user_bias_mask]

/-- The fourth result: the item factors times their row mask. -/
theorem item_factor_product (c : Dev nD) :
    Pipeline.afterTail₀ cfgs (dats m) 0 (V0 m) [hostOps1] c main_v57
      = mulf (F := Ideal) (s := S8192x128) (φ := .f32) (m ((c : Thread nD τ).loc main_arg3)) (factorRows (m ((c : Thread nD τ).loc main_arg1))) := by
  unfold Pipeline.afterTail₀
  show StableHlo.after hostOps1 _ (Proc.devRef .tc main_v57) = _
  after_results
  rw [tail_other m c main_arg3 (by decide), tail_other m c main_v17 (by decide), V_main_arg3, item_factor_mask]

/-- The fifth result: the item biases times their mask. -/
theorem item_bias_product (c : Dev nD) :
    Pipeline.afterTail₀ cfgs (dats m) 0 (V0 m) [hostOps1] c main_v58
      = mulf (F := Ideal) (s := S8192) (φ := .f32) (m ((c : Thread nD τ).loc main_arg5)) (biasVecEntries (m ((c : Thread nD τ).loc main_arg1))) := by
  unfold Pipeline.afterTail₀
  show StableHlo.after hostOps1 _ (Proc.devRef .tc main_v58) = _
  after_results
  rw [tail_other m c main_arg5 (by decide), tail_other m c main_v35 (by decide), V_main_arg5, item_bias_mask]

end Cert.KernelIdeal.Entry

end
-- ==== Proof.KernelRun.lean ====
/-
  The kernel program's run, with every result named.

  Every weakly fair execution of the kernel program terminates without a fault; afterwards its first result is the masked
  score matrix of its arguments (the grid's array, tile by tile), its other four results are the host's products of an
  argument with its 0/1 mask, and the six arguments hold what they held: the grid only reads the two it is launched on
  and no host line writes any of them.
-/
import proofs.«168958_j87557203296997_1_alg».proof.Proof.Gen.KernelIdeal.Frame
import proofs.«168958_j87557203296997_1_alg».proof.Proof.ScoreArray
import proofs.«168958_j87557203296997_1_alg».proof.Proof.HostProducts

noncomputable section

namespace Cert.KernelIdeal.Results

open Cert.KernelIdeal Cert.KernelIdeal.Gen Idealize.ShloMosaic Idealize.ShloMosaic.TcCoe Idealize.SL.Sem
open Idealize.ShloMosaic.Pipeline (Dat)
open Cert.KernelIdeal.Entry

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v54) = ScoreArray.result m c
      ∧ r.2.mem ((c.tc : Thread nD τ).loc main_v55) = mulf (F := Ideal) (s := S8192x128) (φ := .f32) (m ((c.tc : Thread nD τ).loc main_arg2)) (factorRows (m ((c.tc : Thread nD τ).loc main_arg0)))
      ∧ r.2.mem ((c.tc : Thread nD τ).loc main_v56) = mulf (F := Ideal) (s := S8192x1) (φ := .f32) (m ((c.tc : Thread nD τ).loc main_arg4)) (biasColRows (m ((c.tc : Thread nD τ).loc main_arg0)))
      ∧ r.2.mem ((c.tc : Thread nD τ).loc main_v57) = mulf (F := Ideal) (s := S8192x128) (φ := .f32) (m ((c.tc : Thread nD τ).loc main_arg3)) (factorRows (m ((c.tc : Thread nD τ).loc main_arg1)))
      ∧ r.2.mem ((c.tc : Thread nD τ).loc main_v58) = mulf (F := Ideal) (s := S8192) (φ := .f32) (m ((c.tc : Thread nD τ).loc main_arg5)) (biasVecEntries (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 5).trans (ScoreArray.final m c),
      ((h c).2 main_v55 (Pipeline.mem_restRefs_of main_v55 (by decide) (by decide))).trans (user_factor_product m c),
      ((h c).2 main_v56 (Pipeline.mem_restRefs_of main_v56 (by decide) (by decide))).trans (user_bias_product m c),
      ((h c).2 main_v57 (Pipeline.mem_restRefs_of main_v57 (by decide) (by decide))).trans (item_factor_product m c),
      ((h c).2 main_v58 (Pipeline.mem_restRefs_of main_v58 (by decide) (by decide))).trans (item_bias_product m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c)⟩)
    (run_main m ρ)

end Cert.KernelIdeal.Results

end
-- ==== Proof.RefScore.lean ====
/-
  The reference computes the masked score matrix.

  The reference multiplies the user factors by the transposed item factors on the host (a sum over the 128 shared
  coordinates at every entry), spreads the user-bias column along rows and the item-bias vector along columns, adds the
  two in that order, and weights the result entry by entry. Read at an entry (u, i) the transposed item factors at (k, i)
  are the item factors at (i, k), so the entry is the specification's, with the weights whatever the reference's scatter
  of ones produced: that array is carried as it is, never opened.
-/
import proofs.«168958_j87557203296997_1_alg».proof.Proof.Gen.ReferenceIdeal.Read
import proofs.«168958_j87557203296997_1_alg».proof.Proof.MaskedScore

noncomputable section

namespace Cert.ReferenceIdeal.Score

open Cert.ReferenceIdeal Cert.ReferenceIdeal.Gen Cert.ReferenceIdeal.Read Idealize.ShloMosaic Idealize.ShloMosaic.ValueIdx
open Cert.MaskedScore

/-- The user-factor index the host product reads at entry (u, i) and shared coordinate `k` is (u, k). -/
theorem left_index (u i : Fin 8192) (k : Fin 128) : lidx_main_v53 (ix2 u i) k = ix2 u k :=
  funext fun a => Fin.ext (by match a with | ⟨0, _⟩ => rfl | ⟨1, _⟩ => rfl)

/-- The transposed item factors at (k, i) are the item factors at (i, k). -/
theorem right_index (u i : Fin 8192) (k : Fin 128) : idx_main_v52 (ridx_main_v53 (ix2 u i) k) = ix2 i k :=
  funext fun a => Fin.ext (by match a with | ⟨0, _⟩ => rfl | ⟨1, _⟩ => rfl)

/-- The user-bias column spread along rows is read at (u, 0). -/
theorem user_bias_index (u i : Fin 8192) : idx_main_v54 (ix2 u i) = ix2 u 0 :=
  funext fun a => Fin.ext (by match a with | ⟨0, _⟩ => rfl | ⟨1, _⟩ => rfl)

/-- The item-bias vector, made a row and spread along columns, is read at i. -/
theorem item_bias_index (u i : Fin 8192) : idx_main_v56 (idx_main_v57 (ix2 u i)) = ix1 i :=
  funext fun a => Fin.ext (by match a with | ⟨0, _⟩ => rfl)

/-- THE REFERENCE'S FIRST RESULT is the masked score matrix of its arguments, the weights its own scattered mask. -/
theorem result_eq (x0 x1 : (⟨S65536, .i32⟩ : BufTy).Contents (Elt Ideal)) (x2 x3 : (⟨S8192x128, .f32⟩ : BufTy).Contents (Elt Ideal))
    (x4 : (⟨S8192x1, .f32⟩ : BufTy).Contents (Elt Ideal)) (x5 : (⟨S8192, .f32⟩ : BufTy).Contents (Elt Ideal)) :
    val_main_v59 (F := Ideal) x0 x1 x2 x3 x4 x5 = score x2 x3 x4 x5 (val_main_v15 (F := Ideal) x0 x1) := by
  funext j
  obtain ⟨u, i, rfl⟩ : ∃ (u i : Fin 8192), j = ix2 u i := ⟨j 0, j 1, eq_ix2 j⟩
  rw [val_main_v59_apply, val_main_v58_apply, val_main_v55_apply, val_main_v53_apply, val_main_v54_apply,
    val_main_v57_apply, val_main_v56_apply]
  simp only [val_main_v52_apply, left_index, right_index, user_bias_index, item_bias_index]
  rfl

end Cert.ReferenceIdeal.Score

end
-- ==== Proof.SameMasks.lean ====
/-
  Both programs build their 0/1 arrays by the same host lines.

  The weight matrix and the four row masks are each a scatter of ones into zeros at index vectors wrapped by the extent;
  the reference's lines and the kernel program's lines are the same operations with the same literals on the same
  shapes, so as functions of the index vectors they are the same terms. None of them is opened.
-/
import proofs.«168958_j87557203296997_1_alg».proof.Proof.Gen.ReferenceIdeal.Read
import proofs.«168958_j87557203296997_1_alg».proof.Proof.EntryArrays
import proofs.«168958_j87557203296997_1_alg».proof.Proof.HostProducts

noncomputable section

namespace Cert.SameMasks

open Idealize.ShloMosaic

/-- An index vector's wrapped column, in the reference's lines and in the kernel program's. -/
theorem wrapped_users (x : (⟨Cert.ReferenceIdeal.S65536, .i32⟩ : BufTy).Contents (Elt Ideal)) :
    Cert.ReferenceIdeal.Read.val_main_v11 (F := Ideal) x = Cert.KernelIdeal.Entry.wrapped x := rfl
theorem wrapped_items (x : (⟨Cert.ReferenceIdeal.S65536, .i32⟩ : BufTy).Contents (Elt Ideal)) :
    Cert.ReferenceIdeal.Read.val_main_v12 (F := Ideal) x = Cert.KernelIdeal.Entry.wrapped x := rfl

/-- The weight matrix. -/
theorem weights (x0 x1 : (⟨Cert.ReferenceIdeal.S65536, .i32⟩ : BufTy).Contents (Elt Ideal)) :
    Cert.ReferenceIdeal.Read.val_main_v15 (F := Ideal) x0 x1 = Cert.KernelIdeal.Entry.mask x0 x1 := rfl

/-- The user factors' row mask, the item factors', the user-bias column's and the item-bias vector's. -/
theorem user_factor_rows (x : (⟨Cert.ReferenceIdeal.S65536, .i32⟩ : BufTy).Contents (Elt Ideal)) :
    Cert.ReferenceIdeal.Read.val_main_v24 (F := Ideal) x = Cert.KernelIdeal.Entry.factorRows x := rfl
theorem item_factor_rows (x : (⟨Cert.ReferenceIdeal.S65536, .i32⟩ : BufTy).Contents (Elt Ideal)) :
    Cert.ReferenceIdeal.Read.val_main_v33 (F := Ideal) x = Cert.KernelIdeal.Entry.factorRows x := rfl
theorem user_bias_rows (x : (⟨Cert.ReferenceIdeal.S65536, .i32⟩ : BufTy).Contents (Elt Ideal)) :
    Cert.ReferenceIdeal.Read.val_main_v42 (F := Ideal) x = Cert.KernelIdeal.Entry.biasColRows x := rfl
theorem item_bias_entries (x : (⟨Cert.ReferenceIdeal.S65536, .i32⟩ : BufTy).Contents (Elt Ideal)) :
    Cert.ReferenceIdeal.Read.val_main_v51 (F := Ideal) x = Cert.KernelIdeal.Entry.biasVecEntries x := rfl

end Cert.SameMasks

end
-- ==== Proof.lean ====
/-
  A masked score matrix of a factorization model, computed tile by tile on an 8 × 8 grid, against the same matrix
  computed whole on the host.

  Arguments: two vectors of 65536 indices (users, items), user and item factor matrices (8192 × 128 each), a user-bias
  column (8192 × 1) and an item-bias vector (8192). Results: the score matrix

      S[u,i] = ((Σ_k A[u,k] · B[i,k]) + ub[u,0] + ib[i]) · M[u,i],

  where M is ones scattered into a zero 8192 × 8192 matrix at the wrapped (user, item) pairs, and each of the four argument
  arrays times a 0/1 array of its own shape (ones scattered at the wrapped user or item indices).

  The kernel program builds M and the four 0/1 arrays on the host, transposes the item factors, launches a grid whose
  point (r, s) multiplies a 1024 × 128 tile of A by a 128 × 1024 tile of the transposed B into a zero accumulator, adds
  the user-bias rows and then the item-bias columns, weights by the tile of M, and stores tile (r, s) of S; the host then
  takes the four products. The reference does everything on the host with one whole matrix product. On the extended
  reals narrowing the tiles to 16 bits is the identity and a product into zero is the plain sum, so both sides are the
  formula above entry by entry, with the two additions grouped alike: no rearrangement, hence no use of finiteness.
  The scatters are the same terms on both sides and are carried unopened.

  Modules: MaskedScore (the formula), TilePayload (a stored tile at an entry), EntryArrays (what the grid is launched
  on), ScoreArray (tiles to the whole matrix), HostProducts (the four products), KernelRun (the kernel program's run),
  RefScore (the reference's first result is the formula), SameMasks (the 0/1 arrays agree).
-/
import proofs.«168958_j87557203296997_1_alg».proof.Defs
import proofs.«168958_j87557203296997_1_alg».proof.Proof.Gen.Kernel
import proofs.«168958_j87557203296997_1_alg».proof.Proof.Gen.Kernel.Skeleton
import proofs.«168958_j87557203296997_1_alg».proof.Proof.Gen.Kernel.Launch
import proofs.«168958_j87557203296997_1_alg».proof.Proof.Gen.Kernel.Points
import proofs.«168958_j87557203296997_1_alg».proof.Proof.Gen.Kernel.Frame
import proofs.«168958_j87557203296997_1_alg».proof.Proof.Gen.KernelIdeal
import proofs.«168958_j87557203296997_1_alg».proof.Proof.Gen.KernelIdeal.Skeleton
import proofs.«168958_j87557203296997_1_alg».proof.Proof.Gen.KernelIdeal.Launch
import proofs.«168958_j87557203296997_1_alg».proof.Proof.Gen.KernelIdeal.Points
import proofs.«168958_j87557203296997_1_alg».proof.Proof.Gen.KernelIdeal.Frame
import proofs.«168958_j87557203296997_1_alg».proof.Proof.Gen.ReferenceIdeal
import proofs.«168958_j87557203296997_1_alg».proof.Proof.Gen.Pre_finite_inputs
import proofs.«168958_j87557203296997_1_alg».proof.Proof.Gen.ReferenceIdeal.Run
import proofs.«168958_j87557203296997_1_alg».proof.Proof.Gen.ReferenceIdeal.Read
import proofs.«168958_j87557203296997_1_alg».proof.Proof.KernelRun
import proofs.«168958_j87557203296997_1_alg».proof.Proof.RefScore
import proofs.«168958_j87557203296997_1_alg».proof.Proof.SameMasks
import Idealize.ShloMosaic.Adequacy
import Idealize.ShloMosaic.Init

noncomputable section

namespace Cert.Proof

open Idealize.ShloMosaic Idealize.SL.Sem

/-- The kernel program as printed runs to the end without a fault and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- And the reference: its run with the results dropped. -/
theorem frame_reference_ideal : Cert.frame_ReferenceIdeal := fun m ρ _ =>
  (θ_run Cert.ReferenceIdeal.defs _ _).mono (fun _ h c => (h c).2.2.2.2.2) (Cert.ReferenceIdeal.Value.run (F := Ideal) m ρ)

/-- Nothing of the kernel program was rewritten to read it on the extended reals. -/
theorem preserves : Cert.preserves_Kernel_KernelIdeal := trivial

/-- From memories that agree on the arguments the two programs end with the same five results: the masked score matrix
    (the kernel's by tiles, the reference's whole, both the one formula over the same weight matrix) and the four products
    of an argument with its 0/1 array. -/
theorem algebraic : Cert.algebraic_KernelIdeal_ReferenceIdeal := by
  intro m ρ m' ρ' _ hagree
  refine ⟨_, _, _, _, _, Cert.KernelIdeal.Results.run m ρ, ?_⟩
  refine (θ_run Cert.ReferenceIdeal.defs _ _).mono (fun _ h c => ?_) (Cert.ReferenceIdeal.Value.run (F := Ideal) m' ρ')
  obtain ⟨h59, h60, h61, h62, h63, hargs⟩ := h c
  obtain ⟨a0, a1, a2, a3, a4, a5⟩ := hagree c
  refine ⟨h59.trans ?_, h60.trans ?_, h61.trans ?_, h62.trans ?_, h63.trans ?_, hargs⟩
  · rw [a0, a1, a2, a3, a4, a5]
    exact (Cert.ReferenceIdeal.Score.result_eq _ _ _ _ _ _).trans
      (congrArg (Cert.MaskedScore.score _ _ _ _) (Cert.SameMasks.weights _ _))
  · rw [a0, a2]
    exact congrArg (mulf _) (Cert.SameMasks.user_factor_rows _)
  · rw [a0, a4]
    exact congrArg (mulf _) (Cert.SameMasks.user_bias_rows _)
  · rw [a1, a3]
    exact congrArg (mulf _) (Cert.SameMasks.item_factor_rows _)
  · rw [a1, a5]
    exact congrArg (mulf _) (Cert.SameMasks.item_bias_entries _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
